-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S512x100000 : Shape := ⟨2, ![512, 100000]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 16
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S512x100000, .f32⟩
  | .local _ .vmem, ⟨0, _⟩ => ⟨S512x512, .bf16⟩
  | .local _ .vmem, ⟨1, _⟩ => ⟨S1024x512, .f32⟩
  | .local _ .vmem, ⟨2, _⟩ => ⟨S1024x512, .f32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S100000x512.size a
  hwx0_1 : ∀ i : grid0.Coords, EltTy.bits .f32 = 32 ∨ (Rect.unit (s := S100000x512) (fun a => cc0_transform_1 i a * S1024x512.size a) (fun a => (Pipeline.Clip.of (cc0_transform_1 i a) (S1024x512.size a) (S100000x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S100000x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1024.size a < S512x100000.size a
  hwx0_3 : ∀ i : grid0.Coords, EltTy.bits .f32 = 32 ∨ (Rect.unit (s := S512x100000) (fun a => cc0_transform_3 i a * S512x1024.size a) (fun a => (Pipeline.Clip.of (cc0_transform_3 i a) (S512x1024.size a) (S512x100000.size a)).extent (S512x1024.size a)) fun a => Pipeline.Clip.inb (Pipeline.Clip.ok_of (hstart0_3 i a))).WholeWords (EltTy.packing .f32)
  hwxs0_3 : ∀ i : grid0.Coords, EltTy.bits .f32 = 32 ∨ (Rect.unit (s := S512x1024) (fun _ => 0) (fun a => (Pipeline.Clip.of (cc0_transform_3 i a) (S512x1024.size a) (S512x100000.size a)).extent (S512x1024.size a)) fun a => (Nat.zero_add _).trans_le (Pipeline.Clip.extent_le (Pipeline.Clip.ok_of (hstart0_3 i a)))).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v8) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v10) S512x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩

abbrev nBuf : Space → Nat
  | .hbm => 58
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S_, .f32⟩
  | .hbm, ⟨31, _⟩ => ⟨S512x100000, .f32⟩
  | .hbm, ⟨32, _⟩ => ⟨S512x100000, .f32⟩
  | .hbm, ⟨33, _⟩ => ⟨S512x100000, .f32⟩
  | .hbm, ⟨34, _⟩ => ⟨S_, .f32⟩
  | .hbm, ⟨35, _⟩ => ⟨S512x100000, .f32⟩
  | .hbm, ⟨36, _⟩ => ⟨S512x100000, .f32⟩
  | .hbm, ⟨37, _⟩ => ⟨S_, .f32⟩
  | .hbm, ⟨38, _⟩ => ⟨S512x100000, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .i1⟩
  | .hbm, ⟨44, _⟩ => ⟨S_, .f32⟩
  | .hbm, ⟨45, _⟩ => ⟨S512x100000, .f32⟩
  | .hbm, ⟨46, _⟩ => ⟨S512x100000, .f32⟩
  | .hbm, ⟨47, _⟩ => ⟨S512x100000, .f32⟩
  | .hbm, ⟨48, _⟩ => ⟨S100000, .i32⟩
  | .hbm, ⟨49, _⟩ => ⟨S1x100000, .i32⟩
  | .hbm, ⟨50, _⟩ => ⟨S512x1, .i32⟩
  | .hbm, ⟨51, _⟩ => ⟨S512x100000, .i32⟩
  | .hbm, ⟨52, _⟩ => ⟨S512x100000, .i32⟩
  | .hbm, ⟨53, _⟩ => ⟨S512x100000, .i1⟩
  | .hbm, ⟨54, _⟩ => ⟨S512x100000, .f32⟩
  | .hbm, ⟨55, _⟩ => ⟨S_, .f32⟩
  | .hbm, ⟨56, _⟩ => ⟨S512x100000, .f32⟩
  | .hbm, ⟨57, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S512x1_S512x100000_0_1 : S512x1.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.BodyBits.lean ====
/-
  The kernel body's run and the proof data of its one pipeline, for any reading of the floats.

  The body loads its three input staging buffers whole (the block of class rows, the normalized
  features, the labels), computes one value from them, and stores it whole into the output's staging
  buffer. The class-row window and the output window do not tile their arrays: the last of the 98
  blocks overhangs the array's end (100000 = 97 · 1024 + 672), the fetch leaves rows past the end at
  contents nothing names, and only the part of the output block inside the array is written back.
-/
import proofs.«141103_j63221918597379_1_alg».proof.Proof.Gen.Kernel.Frame
import proofs.«141103_j63221918597379_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer through its whole rectangle -/

abbrev rX : Rect S512x512 := Rect.unit (s := S512x512) ![0, 0] S512x512.size inb_S512x512_S512x512_0_0
abbrev rW : Rect S1024x512 := Rect.unit (s := S1024x512) ![0, 0] S1024x512.size inb_S1024x512_S1024x512_0_0
abbrev rL : Rect S512x1 := Rect.unit (s := S512x1) ![0, 0] S512x1.size inb_S512x1_S512x1_0_0
abbrev rO : Rect S512x1024 := Rect.unit (s := S512x1024) ![0, 0] S512x1024.size inb_S512x1024_S512x1024_0_0

theorem hz2 : (![0, 0] : Fin 2 → Nat) = fun _ => 0 := funext fun a => by fin_cases a <;> rfl

/-- What the output's staging buffer holds after the body, from the three input buffers' contents: its one
    store, through the whole rectangle, of the body's value at the three whole loads. -/
def outBlk (i : grid0.Coords) (x1 : Vec F S512x512 .bf16) (x2 : Vec F S1024x512 .f32) (x3 : Vec F S512x1 .i32) :
    Vec F S512x1024 .f32 :=
  View.canon [⟨rO, k0_pay1 i (View.ld x2 rW) (View.ld x1 rX) (View.ld x3 rL)⟩]

/-- A whole load reads the contents and the one whole store leaves its value: the buffer ends at the body's
    value of the three buffers' contents. -/
theorem outBlk_eq (i : grid0.Coords) (x1 : Vec F S512x512 .bf16) (x2 : Vec F S1024x512 .f32) (x3 : Vec F S512x1 .i32) :
    outBlk i x1 x2 x3 = k0_pay1 i x2 x1 x3 := by
  unfold outBlk
  rw [View.canon_unit_zero hz2, View.ld_unit_zero hz2, View.ld_unit_zero hz2, View.ld_unit_zero hz2]

/-! ## The body's triple -/

set_option maxHeartbeats 1000000 in
/-- The body on whole staging memrefs, the inputs' at contents `x1`, `x2`, `x3` and the output's at anything,
    runs to the continuation holding the inputs' as they were and the output's at `outBlk` of them. -/
theorem sound_kernel (c : Dev nD) (E : Set ℕ) (i : grid0.Coords)
    (arg1 : Memref sig .tc .vmem S512x512 .bf16) (harg1 : arg1.IsWhole) (arg2 : Memref sig .tc .vmem S1024x512 .f32) (harg2 : arg2.IsWhole)
    (arg3 : Memref sig .tc .vmem S512x1 .i32) (harg3 : arg3.IsWhole) (arg4 : Memref sig .tc .vmem S512x1024 .f32) (harg4 : arg4.IsWhole)
    (x1 : Vec F S512x512 .bf16) (x2 : Vec F S1024x512 .f32) (x3 : Vec F S512x1 .i32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (outBlk i x1 x2 x3)) -∗ K ⟨⟩))
      ⊢ wp frame (wpE (defs₀ (F := F)) Variants.none c none) E (cc0__margin_kernel i arg1 harg1 arg2 harg2 arg3 harg3 arg4 harg4) K := by
  simp only [cc0__margin_kernel_eq_skeleton]; unfold cc0__margin_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero hz2 inb_S512x1024_S512x1024_0_0 y⟩)

end Cert.Kernel.Body

end
-- ==== Proof.DataBits.lean ====
/-
  The proof data of the kernel's one pipeline and its body obligation, for any reading of the floats,
  and the frame: the program runs to the end, faults nowhere and leaves its three arguments unchanged.

  At point `t` the features' and the labels' staging buffers hold their (whole) arrays; the class rows'
  buffer holds block `t` of the weight array on the rows inside the array and contents nothing names
  past its end (only the last block overhangs); the body leaves the inputs as found and the output's
  buffer at its value of the three. For the frame nothing is read of what the output's buffer holds.
-/
import proofs.«141103_j63221918597379_1_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The class rows' staging buffer at point `t` as the proof data names it: block `t` of the weight array
    on the rows inside the array, the zero word past its end (a filler nothing reads). -/
def wfill (c : Dev nD) (t : Fin cfg0.N) : S1024x512.Idx → Elt F .f32 :=
  (cfg0.win 1).fill (cfg0.grid.coords t) (fun _ => Scalar.ofBits .f32 0#32) (iblk m c 1 t)

/-- The proof data of the one pipeline on core `c`: the arrays as the region finds them; after the body at
    point `t` each input's buffer at its block (the class rows' filled out past the array's end) and the
    output's at the body's value of them; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, _⟩ => outBlk (grid0.coords t) (iblk m c 0 t) (wfill m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (wfill m c t) (iblk m c 2 t) := by dsimp only [dats]

/-- The features' and the labels' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The class rows' buffer is fetched at every point: it holds the block on the rows inside the array and
    what the overwrite before the fetch left, `d`, past its end. -/
theorem before0_1 (c : Dev nD) (t : Fin cfg0.N) (d) :
    (dats m 0 c).before 1 t d = (cfg0.win 1).fill (cfg0.grid.coords t) d (iblk m c 1 t) := by
  unfold Dat.before; rw [if_pos (fetch0_1 t)]
  unfold Dat.fetched Dat.blockOf iblk; rw [A_eq]

/-! ## The body obligation -/

/-- The frame reads nothing of what the body leaves in the output window's buffer. -/
def forgets : Fin 4 → Bool := fun w => w.val == 3

/-- What the body is called with at point `t`, the windows one by one: the inputs' buffers at what they then
    hold, the output's at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- what it returns when nothing is said of the output's buffer; -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ X, owns (c : Thread nD τ) (st0_3 t) fullShare X))

/-- The rows of the class block inside the array are the block the proof data names, whatever lies past them. -/
theorem cut_wfill (c : Dev nD) (t : Fin cfg0.N) :
    (cfg0.win 1).cut (cfg0.grid.coords t) (wfill m c t) = iblk m c 1 t := (cfg0.win 1).cut_fill _ _ _

/-- The body at any point, nothing said of the output's buffer: the inputs' buffers hold their blocks (the class
    rows' with anything past the array's end), so the body runs; it leaves them as found; the invariant and
    what the core owes pass through unread. -/
theorem sound_body_forget (c : Dev nD) (t : Fin cfg0.N) :
    bodyPre m c t ⊢ wp frame (wpE (defs₀ (F := F)) Variants.none c none) Set.univ (bodyAt0 t) (fun _ => bodyPostForget m c t) := by
  unfold bodyPre bodyPostForget bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, cut_wfill]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexists _; iexact H3

/-- The library's body obligation with the output window forgotten, at every point. -/
theorem body_obligation_forget (c : Dev nD) :
    BodyObligationLoose (dats (F := F) m 0 c) (defs₀ (F := F)) Variants.none () Set.univ forgets := fun t => by
  rw [bigSep_W0, bigSep_W0]
  exact sound_body_forget m c t

/-! ## The runs and the frame -/

set_option backward.isDefEq.respectTransparency.types false in
/-- Every weakly fair execution of @main terminates, nothing faulting, every input array of the pipeline unchanged
    and every other unscoped buffer as the region found it; nothing is stated of the output array. -/
theorem run_forget : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation_forget m c).toRForget)
    (hshare := fun c => ((dats m 0 c).toRForget forgets).share_full fun _ => rfl)
    (howed := fun _ _ => rfl) (V := V m) (hmain := hmain m Variants.none) (hA := A_eq m) (hΦ := fun _ _ => rfl)

/-- THE FRAME, at any reading of the floats: the program terminates, faults nowhere and leaves its three
    arguments unchanged — the features and the labels are read only by host operations (no window stages
    them), the weights are an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      (Eq.mp (congrFun (((dats m 0 c).toRForget forgets).ArrAt_in 1 rfl _) _) ((h c).1 1)).trans
        ((A_eq m c 1).trans (V_main_arg1 m c)),
      ((h c).2 main_arg2 (Pipeline.mem_restRefs_of main_arg2 (by decide) (by decide))).trans (V_main_arg2 m c)⟩)
    (run_forget m ρ)

end Cert.Kernel.Body

end
-- ==== Proof.Body.lean ====
/-
  The kernel body's run and the proof data of its one pipeline, for any reading of the floats.

  The body loads its three input staging buffers whole (the block of class rows, the normalized
  features, the labels), computes one value from them, and stores it whole into the output's staging
  buffer. The class-row window and the output window do not tile their arrays: the last of the 98
  blocks overhangs the array's end (100000 = 97 · 1024 + 672), the fetch leaves rows past the end at
  contents nothing names, and only the part of the output block inside the array is written back.
-/
import proofs.«141103_j63221918597379_1_alg».proof.Proof.Gen.KernelIdeal.Frame
import proofs.«141103_j63221918597379_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer through its whole rectangle -/

abbrev rX : Rect S512x512 := Rect.unit (s := S512x512) ![0, 0] S512x512.size inb_S512x512_S512x512_0_0
abbrev rW : Rect S1024x512 := Rect.unit (s := S1024x512) ![0, 0] S1024x512.size inb_S1024x512_S1024x512_0_0
abbrev rL : Rect S512x1 := Rect.unit (s := S512x1) ![0, 0] S512x1.size inb_S512x1_S512x1_0_0
abbrev rO : Rect S512x1024 := Rect.unit (s := S512x1024) ![0, 0] S512x1024.size inb_S512x1024_S512x1024_0_0

theorem hz2 : (![0, 0] : Fin 2 → Nat) = fun _ => 0 := funext fun a => by fin_cases a <;> rfl

/-- What the output's staging buffer holds after the body, from the three input buffers' contents: its one
    store, through the whole rectangle, of the body's value at the three whole loads. -/
def outBlk (i : grid0.Coords) (x1 : Vec F S512x512 .bf16) (x2 : Vec F S1024x512 .f32) (x3 : Vec F S512x1 .i32) :
    Vec F S512x1024 .f32 :=
  View.canon [⟨rO, k0_pay1 i (View.ld x2 rW) (View.ld x1 rX) (View.ld x3 rL)⟩]

/-- A whole load reads the contents and the one whole store leaves its value: the buffer ends at the body's
    value of the three buffers' contents. -/
theorem outBlk_eq (i : grid0.Coords) (x1 : Vec F S512x512 .bf16) (x2 : Vec F S1024x512 .f32) (x3 : Vec F S512x1 .i32) :
    outBlk i x1 x2 x3 = k0_pay1 i x2 x1 x3 := by
  unfold outBlk
  rw [View.canon_unit_zero hz2, View.ld_unit_zero hz2, View.ld_unit_zero hz2, View.ld_unit_zero hz2]

/-! ## The body's triple -/

set_option maxHeartbeats 1000000 in
/-- The body on whole staging memrefs, the inputs' at contents `x1`, `x2`, `x3` and the output's at anything,
    runs to the continuation holding the inputs' as they were and the output's at `outBlk` of them. -/
theorem sound_kernel (c : Dev nD) (E : Set ℕ) (i : grid0.Coords)
    (arg1 : Memref sig .tc .vmem S512x512 .bf16) (harg1 : arg1.IsWhole) (arg2 : Memref sig .tc .vmem S1024x512 .f32) (harg2 : arg2.IsWhole)
    (arg3 : Memref sig .tc .vmem S512x1 .i32) (harg3 : arg3.IsWhole) (arg4 : Memref sig .tc .vmem S512x1024 .f32) (harg4 : arg4.IsWhole)
    (x1 : Vec F S512x512 .bf16) (x2 : Vec F S1024x512 .f32) (x3 : Vec F S512x1 .i32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (outBlk i x1 x2 x3)) -∗ K ⟨⟩))
      ⊢ wp frame (wpE (defs₀ (F := F)) Variants.none c none) E (cc0__margin_kernel i arg1 harg1 arg2 harg2 arg3 harg3 arg4 harg4) K := by
  simp only [cc0__margin_kernel_eq_skeleton]; unfold cc0__margin_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (fun y => ⟨_, List.mem_singleton_self _, View.mem_set_unit_zero hz2 inb_S512x1024_S512x1024_0_0 y⟩)

end Cert.KernelIdeal.Body

end
-- ==== Proof.Data.lean ====
/-
  The proof data of the kernel's one pipeline and its body obligation, for any reading of the floats,
  and the frame: the program runs to the end, faults nowhere and leaves its three arguments unchanged.

  At point `t` the features' and the labels' staging buffers hold their (whole) arrays; the class rows'
  buffer holds block `t` of the weight array on the rows inside the array and contents nothing names
  past its end (only the last block overhangs); the body leaves the inputs as found and the output's
  buffer at its value of the three. For the frame nothing is read of what the output's buffer holds.
-/
import proofs.«141103_j63221918597379_1_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The class rows' staging buffer at point `t` as the proof data names it: block `t` of the weight array
    on the rows inside the array, the zero word past its end (a filler nothing reads). -/
def wfill (c : Dev nD) (t : Fin cfg0.N) : S1024x512.Idx → Elt F .f32 :=
  (cfg0.win 1).fill (cfg0.grid.coords t) (fun _ => Scalar.ofBits .f32 0#32) (iblk m c 1 t)

/-- The proof data of the one pipeline on core `c`: the arrays as the region finds them; after the body at
    point `t` each input's buffer at its block (the class rows' filled out past the array's end) and the
    output's at the body's value of them; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, _⟩ => outBlk (grid0.coords t) (iblk m c 0 t) (wfill m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (wfill m c t) (iblk m c 2 t) := by dsimp only [dats]

/-- The features' and the labels' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The class rows' buffer is fetched at every point: it holds the block on the rows inside the array and
    what the overwrite before the fetch left, `d`, past its end. -/
theorem before0_1 (c : Dev nD) (t : Fin cfg0.N) (d) :
    (dats m 0 c).before 1 t d = (cfg0.win 1).fill (cfg0.grid.coords t) d (iblk m c 1 t) := by
  unfold Dat.before; rw [if_pos (fetch0_1 t)]
  unfold Dat.fetched Dat.blockOf iblk; rw [A_eq]

/-! ## The body obligation -/

/-- The frame reads nothing of what the body leaves in the output window's buffer. -/
def forgets : Fin 4 → Bool := fun w => w.val == 3

/-- What the body is called with at point `t`, the windows one by one: the inputs' buffers at what they then
    hold, the output's at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- the same with the output's buffer at what the pipeline's bookkeeping says it then holds (nothing the body reads); -/
def bodyPreExact (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- what it returns when nothing is said of the output's buffer; -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ X, owns (c : Thread nD τ) (st0_3 t) fullShare X))

/-- and what it returns with the output's buffer stated on the columns inside the array. -/
def bodyPostExact (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

/-- The rows of the class block inside the array are the block the proof data names, whatever lies past them. -/
theorem cut_wfill (c : Dev nD) (t : Fin cfg0.N) :
    (cfg0.win 1).cut (cfg0.grid.coords t) (wfill m c t) = iblk m c 1 t := (cfg0.win 1).cut_fill _ _ _

/-- The body at any point, nothing said of the output's buffer: the inputs' buffers hold their blocks (the class
    rows' with anything past the array's end), so the body runs; it leaves them as found; the invariant and
    what the core owes pass through unread. -/
theorem sound_body_forget (c : Dev nD) (t : Fin cfg0.N) :
    bodyPre m c t ⊢ wp frame (wpE (defs₀ (F := F)) Variants.none c none) Set.univ (bodyAt0 t) (fun _ => bodyPostForget m c t) := by
  unfold bodyPre bodyPostForget bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, cut_wfill]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexists _; iexact H3

/-- The library's body obligation with the output window forgotten, at every point. -/
theorem body_obligation_forget (c : Dev nD) :
    BodyObligationLoose (dats (F := F) m 0 c) (defs₀ (F := F)) Variants.none () Set.univ forgets := fun t => by
  rw [bigSep_W0, bigSep_W0]
  exact sound_body_forget m c t

/-- The columns of the output block inside the array do not depend on what the class rows' buffer holds past the
    array's end. (Column `j` of the block is computed from row `j` of the class block alone, and the two are cut at
    the same place; this is a property of the arithmetic, stated here and proved where the floats are read.) -/
def CutIndep : Prop := ∀ (c : Dev nD) (t : Fin cfg0.N) (d : S1024x512.Idx → Elt F .f32),
  (cfg0.win 3).cut (cfg0.grid.coords t)
      (outBlk (grid0.coords t) (iblk m c 0 t) ((cfg0.win 1).fill (cfg0.grid.coords t) d (iblk m c 1 t)) (iblk m c 2 t))
    = (cfg0.win 3).cut (cfg0.grid.coords t) (outBlk (grid0.coords t) (iblk m c 0 t) (wfill m c t) (iblk m c 2 t))

/-- The body at any point, the output's buffer stated on the columns inside the array: as above, and what the
    body stored agrees there with what the proof data names (`CutIndep`). -/
theorem sound_body_exact (hI : CutIndep m) (c : Dev nD) (t : Fin cfg0.N) :
    bodyPreExact m c t ⊢ wp frame (wpE (defs₀ (F := F)) Variants.none c none) Set.univ (bodyAt0 t) (fun _ => bodyPostExact m c t) := by
  unfold bodyPreExact bodyPostExact bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, cut_wfill]
  iintro ⟨HΦ, Ho, ⟨%d0, H0⟩, ⟨%d1, H1⟩, ⟨%d2, H2⟩, ⟨%X3, H3⟩⟩
  iapply (sound_kernel c Set.univ (grid0.coords t) _ _ _ _ _ _ _ _ (iblk m c 0 t)
    ((cfg0.win 1).fill (cfg0.grid.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexists _
  rw [(cfg0.win 3).fill_congr_cut (cfg0.grid.coords t) (hI c t d1)]
  iexact H3

/-- The library's body obligation, the output's buffer stated on the columns inside the array, at every point. -/
theorem body_obligation_exact (hI : CutIndep m) (c : Dev nD) :
    BodyObligationLoose (dats (F := F) m 0 c) (defs₀ (F := F)) Variants.none () Set.univ := fun t => by
  rw [bigSep_W0, bigSep_W0]
  exact sound_body_exact m hI c t

/-! ## The runs and the frame -/

set_option backward.isDefEq.respectTransparency.types false in
/-- Every weakly fair execution of @main terminates, nothing faulting, every input array of the pipeline unchanged
    and every other unscoped buffer as the region found it; nothing is stated of the output array. -/
theorem run_forget : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation_forget m c).toRForget)
    (hshare := fun c => ((dats m 0 c).toRForget forgets).share_full fun _ => rfl)
    (howed := fun _ _ => rfl) (V := V m) (hmain := hmain m Variants.none) (hA := A_eq m) (hΦ := fun _ _ => rfl)

set_option backward.isDefEq.respectTransparency.types false in
/-- The same run with the output array named: every array of the pipeline ends at what the library computes from
    the proof data (the output: the entry contents overwritten, point by point, by the columns inside the array of
    what the body left), given that those columns do not depend on the rows past the weight array's end. -/
theorem run_exact (hI : CutIndep m) : θ_run defs (onTc (τ := τ) (main (F := F))) (s₀ m ρ)
    (Pipeline.FramePost cfgs (dats m) 0 (V m)) :=
  Pipeline.θ_run_frame cfgs (dats m) (0 : Fin 1) launch0 defs₀ Variants.none m ρ main
    (hbody := fun c => body_obligation_exact m hI c) (hshare := fun c => (dats m 0 c).share_full fun _ => rfl)
    (howed := fun _ _ => rfl) (V := V m) (hmain := hmain m Variants.none) (hA := A_eq m) (hΦ := fun _ _ => rfl)

/-- THE FRAME, at any reading of the floats: the program terminates, faults nowhere and leaves its three
    arguments unchanged — the features and the labels are read only by host operations (no window stages
    them), the weights are an input window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      (Eq.mp (congrFun (((dats m 0 c).toRForget forgets).ArrAt_in 1 rfl _) _) ((h c).1 1)).trans
        ((A_eq m c 1).trans (V_main_arg1 m c)),
      ((h c).2 main_arg2 (Pipeline.mem_restRefs_of main_arg2 (by decide) (by decide))).trans (V_main_arg2 m c)⟩)
    (run_forget m ρ)

end Cert.KernelIdeal.Body

end
-- ==== Proof.Spec.lean ====
/-
  The function both programs compute, stated once over the extended reals, index by index.

  For a feature row `x_b` (512 entries), a class row `w_c` (512 entries) and a label word `l_b`:
  each row is divided by its Euclidean length floored at the f32 word nearest 1e-12, the cosine is the
  sum over the 512 coordinates of the products of the two normalized rows, and the additive angular
  margin is applied to it at the label's column: with `s = sqrt (max 0 (1 - cos²))`,
  `phi = cos · cos m - s · sin m` where `cos > cos (π - m)` and `cos - m · sin (π - m)` elsewhere; the
  entry is `64 · phi` at the label's column and `64 · cos` at every other. The four constants enter as
  the f32 words both programs print, never evaluated.
-/
import Idealize.ShloMosaic.PureOps.Ideal
import Idealize.ShloMosaic.Lib.ValueIdx

noncomputable section

namespace Cert.Margin

open Idealize.ShloMosaic Idealize.ShloMosaic.ValueIdx

/-- The Euclidean length of a row of 512 entries, floored at the f32 word nearest 1e-12. -/
def rowLen (v : Fin 512 → EReal) : EReal :=
  max (Ideal.sqrt (∑ k : Fin 512, v k * v k)) (Ideal.ofBits .f32 0x2B8CBCCC#32)

/-- A row divided by its floored length. -/
def unitRow (v : Fin 512 → EReal) (k : Fin 512) : EReal := Ideal.div (v k) (rowLen v)

/-- The inner product of a row `u` with the normalized `w`. -/
def cosine (u w : Fin 512 → EReal) : EReal := ∑ k : Fin 512, u k * unitRow w k

/-- The margin transform of one cosine, `tgt` saying whether the column is the row's label; times 64. -/
def margin (cs : EReal) (tgt : BitVec 1) : EReal :=
  Scalar.select tgt
    (Scalar.select (Ideal.cmp .ogt cs (Ideal.ofBits .f32 0xBF60A940#32))
      (cs * Ideal.ofBits .f32 0x3F60A940#32
        - Ideal.sqrt (max (Ideal.ofBits .f32 0x00000000#32) (Ideal.ofBits .f32 0x3F800000#32 - cs * cs))
            * Ideal.ofBits .f32 0x3EF57744#32)
      (cs - Ideal.ofBits .f32 0x3E757744#32))
    cs
  * Ideal.ofBits .f32 0x42800000#32

/-- The whole result: entry `(b, c)` from row `b` of the features, row `c` of the class weights and label `b`. -/
def G (x : (⟨2, ![512, 512]⟩ : Shape).Idx → EReal) (w : (⟨2, ![100000, 512]⟩ : Shape).Idx → EReal)
    (l : (⟨1, ![512]⟩ : Shape).Idx → BitVec 32) : (⟨2, ![512, 100000]⟩ : Shape).Idx → EReal := fun i =>
  margin (cosine (unitRow fun k => x (ix2 (i 0) k)) (fun k => w (ix2 (i 1) k)))
    (IntOp.cmpi .eq (BitVec.ofNat 32 (i 1).val) (l (ix1 (i 0))))

end Cert.Margin

end
-- ==== Proof.PayAt.lean ====
/-
  The value one grid point stores, read at one entry, at the ideal values.

  A grid point holds 1024 class rows of 512 entries, the 512 feature rows (already normalized) and the 512
  labels. Each class row is divided by its Euclidean length floored at a small constant; the product of the
  feature rows with these normalized class rows, contracting the 512 lanes of both, is the block of cosines;
  the margin transform is applied entry by entry, at the entries whose column number in the whole array (the
  block's number times 1024 plus the column inside the block) equals the row's label. Every step but four acts
  entry by entry and is read at an entry by unfolding; the four that are not — the sum along a row, the view of
  a vector as a column, the spreading of a column over the lanes, and the product — each get one lemma stated at
  explicit coordinates. The result is the specification's margin of the specification's cosine.
-/
import proofs.«141103_j63221918597379_1_alg».proof.Proof.Gen.KernelIdeal.Skeleton
import proofs.«141103_j63221918597379_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-- The class rows of a block, each divided by its floored Euclidean length: the right factor of the product. -/
def unitRows (v0 : Vec Ideal S1024x512 .f32) : FVec Ideal S1024x512 .bf16 :=
  truncf .bf16
    (divf v0
      (broadcastTo S1024x512
        (maximumf
          (sqrt (shapeCast S1024x1
            (multiReduction (F := Ideal) .add [1] S1024 (mulf v0 v0) 0x00000000#32 reduces_S1024x512_S1024 (.inl rfl) rfl)
            shapeCasts_S1024_S1024x1))
          (broadcast S1024x1 (Scalar.ofBits .f32 0x2B8CBCCC#32)))
        broadcasts_S1024x1_S1024x512))
    bitsLt_bf16_f32

/-- The block of cosines: every feature row against every normalized class row. -/
def cosines (v0 : Vec Ideal S1024x512 .f32) (v10 : Vec Ideal S512x512 .bf16) : FVec Ideal S512x1024 .f32 :=
  matmul dot_S512x512_S1024x512_S512x1024_1_1_0_0_n_n none
    (shapeCast S512x512 v10 shapeCasts_S512x512_S512x512 : FVec Ideal S512x512 .bf16) (unitRows v0) (constant (F := Ideal) S512x1024 .f32 0x00000000#32)

/-- Whether a column of the block is the row's label: the block's first column number plus the column, against the label. -/
def isLabel (i : grid0.Coords) (v33 : Vec Ideal S512x1 .i32) : IVec S512x1024 1 :=
  cmpi .eq
    (addi (iota .tc S512x1024 32 [1] iota_S512x1024_d1_w32)
      (broadcast S512x1024 (Scalar.muli (BitVec.ofNat 32 (i 0).val) 1024#32)))
    (broadcastTo S512x1024 (shapeCast S512x1 v33 shapeCasts_S512x1_S512x1) broadcasts_S512x1_S512x1024)

/-- The stored value is the margin transform applied entry by entry to the cosines and the label test. -/
theorem pay_eq (i : grid0.Coords) (v0 : Vec Ideal S1024x512 .f32) (v10 : Vec Ideal S512x512 .bf16)
    (v33 : Vec Ideal S512x1 .i32) :
    k0_pay1 (F := Ideal) i v0 v10 v33 = fun x => Cert.Margin.margin (cosines v0 v10 x) (isLabel i v33 x) := rfl

/-- The sum along a class row of the block: the lane reduction read at one row. -/
theorem laneSum_at (v : FVec Ideal S1024x512 .f32) (j : Fin 1024) :
    multiReduction (F := Ideal) .add [1] S1024 v 0x00000000#32 reduces_S1024x512_S1024 (.inl rfl) rfl (ix1 j)
      = ∑ k : Fin 512, v (ix2 j k) := by
  refine (Ideal.multiReduction_add_single v 0x00000000#32 reduces_S1024x512_S1024 (.inl rfl) rfl (ix1 j)).trans ?_
  refine Finset.sum_congr rfl fun k _ => congrArg v (funext fun a => Fin.ext ?_)
  match a with
  | ⟨0, _⟩ => rfl
  | ⟨1, _⟩ => rfl

/-- A vector of 1024 entries viewed as a column reads its entry at the column's row. -/
theorem column_at {α : Type} (v : S1024.Idx → α) (j : Fin 1024) :
    shapeCast S1024x1 v shapeCasts_S1024_S1024x1 (ix2 j (0 : Fin 1)) = v (ix1 j) :=
  shapeCast_apply v shapeCasts_S1024_S1024x1 _ _ (by
    rw [Shape.rowMajor_val_one, Shape.rowMajor_val_two]
    show j.val = j.val * 1 + 0
    omega)

/-- A column of 1024 entries spread over 512 lanes reads, at every lane, the column's entry of that row. -/
theorem spreadRows_at {α : Type} (v : S1024x1.Idx → α) (j : Fin 1024) (k : Fin 512) :
    broadcastTo S1024x512 v broadcasts_S1024x1_S1024x512 (ix2 j k) = v (ix2 j (0 : Fin 1)) := by
  refine broadcastTo_apply v broadcasts_S1024x1_S1024x512 (ix2 j k) (ix2 j (0 : Fin 1)) fun a => ?_
  match a with
  | ⟨0, _⟩ => show j.val = if (1024 : Nat) = 1 then 0 else j.val; rw [if_neg (by decide)]
  | ⟨1, _⟩ => show 0 = if (1 : Nat) = 1 then 0 else k.val; rw [if_pos rfl]

/-- A column of 512 entries spread over 1024 lanes reads, at every lane, the column's entry of that row. -/
theorem spreadLabels_at {α : Type} (v : S512x1.Idx → α) (b : Fin 512) (j : Fin 1024) :
    broadcastTo S512x1024 v broadcasts_S512x1_S512x1024 (ix2 b j) = v (ix2 b (0 : Fin 1)) := by
  refine broadcastTo_apply v broadcasts_S512x1_S512x1024 (ix2 b j) (ix2 b (0 : Fin 1)) fun a => ?_
  match a with
  | ⟨0, _⟩ => show b.val = if (512 : Nat) = 1 then 0 else b.val; rw [if_neg (by decide)]
  | ⟨1, _⟩ => show 0 = if (1 : Nat) = 1 then 0 else j.val; rw [if_pos rfl]

/-- An entry of the normalized class rows: the class row's entry over the row's floored length. -/
theorem unitRows_at (v0 : Vec Ideal S1024x512 .f32) (j : Fin 1024) (k : Fin 512) :
    unitRows v0 (ix2 j k) = Cert.Margin.unitRow (fun k => v0 (ix2 j k)) k := by
  unfold unitRows Cert.Margin.unitRow Cert.Margin.rowLen
  rw [truncf_apply, divf_apply, spreadRows_at, maximumf_apply]
  refine congrArg (fun t => Ideal.div (v0 (ix2 j k)) (max (Ideal.sqrt t) _)) ?_
  rw [column_at, laneSum_at]
  rfl

/-- The left factor's row is the entry's row. -/
theorem lhs_row (x : S512x1024.Idx) (q : dot_S512x512_S1024x512_S512x1024_1_1_0_0_n_n.contr.Idx) :
    (dot_S512x512_S1024x512_S512x1024_1_1_0_0_n_n.lhsIdx x q 0).val = (x 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl

/-- The left factor's lane is the summation index. -/
theorem lhs_lane (x : S512x1024.Idx) (q : dot_S512x512_S1024x512_S512x1024_1_1_0_0_n_n.contr.Idx) :
    (dot_S512x512_S1024x512_S512x1024_1_1_0_0_n_n.lhsIdx x q 1).val = (q ⟨0, by decide⟩).val :=
  dot_S512x512_S1024x512_S512x1024_1_1_0_0_n_n.lhsIdx_val_of_single rfl x q

/-- The right factor's row is the entry's column. -/
theorem rhs_row (x : S512x1024.Idx) (q : dot_S512x512_S1024x512_S512x1024_1_1_0_0_n_n.contr.Idx) :
    (dot_S512x512_S1024x512_S512x1024_1_1_0_0_n_n.rhsIdx x q 0).val = (x 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl

/-- The right factor's lane is the summation index. -/
theorem rhs_lane (x : S512x1024.Idx) (q : dot_S512x512_S1024x512_S512x1024_1_1_0_0_n_n.contr.Idx) :
    (dot_S512x512_S1024x512_S512x1024_1_1_0_0_n_n.rhsIdx x q 1).val = (q ⟨0, by decide⟩).val :=
  dot_S512x512_S1024x512_S512x1024_1_1_0_0_n_n.rhsIdx_val_of_single rfl x q

/-- The product into a zero accumulator, contracting the lanes of both factors, read at one entry. -/
theorem product_at (l : FVec Ideal S512x512 .bf16) (r : FVec Ideal S1024x512 .bf16) (b : Fin 512) (j : Fin 1024) :
    matmul dot_S512x512_S1024x512_S512x1024_1_1_0_0_n_n none l r (constant (F := Ideal) S512x1024 .f32 0x00000000#32) (ix2 b j)
      = ∑ k : Fin 512, l (ix2 b k) * r (ix2 j k) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 b j) ((contrEquiv1 dot_S512x512_S1024x512_S512x1024_1_1_0_0_n_n 512 rfl rfl).symm k) = ix2 b k := funext fun a => Fin.ext (by
    match a with
    | ⟨0, _⟩ => exact lhs_row _ _
    | ⟨1, _⟩ => exact (lhs_lane _ _).trans hk)
  have er : dot_S512x512_S1024x512_S512x1024_1_1_0_0_n_n.rhsIdx (ix2 b j) ((contrEquiv1 dot_S512x512_S1024x512_S512x1024_1_1_0_0_n_n 512 rfl rfl).symm k) = ix2 j k := funext fun a => Fin.ext (by
    match a with
    | ⟨0, _⟩ => exact rhs_row _ _
    | ⟨1, _⟩ => exact (rhs_lane _ _).trans hk)
  rw [el, er]

/-- An entry of the cosines: the feature row against the normalized class row. -/
theorem cosines_at (v0 : Vec Ideal S1024x512 .f32) (v10 : Vec Ideal S512x512 .bf16) (b : Fin 512) (j : Fin 1024) :
    cosines v0 v10 (ix2 b j)
      = Cert.Margin.cosine (fun k => v10 (ix2 b k)) (fun k => v0 (ix2 j k)) := by
  unfold cosines Cert.Margin.cosine
  rw [shapeCast_self, product_at]
  exact Finset.sum_congr rfl fun k _ => congrArg (v10 (ix2 b k) * ·) (unitRows_at v0 j k)

/-- The column number of an entry in the whole array: the block's first column plus the column inside the block. -/
theorem columnNumber (n m : Nat) :
    BitVec.ofNat 32 m + BitVec.ofNat 32 n * 1024#32 = BitVec.ofNat 32 (n * 1024 + m) := by
  rw [Nat.add_comm, BitVec.ofNat_add, BitVec.ofNat_mul]

/-- The label test at one entry: the entry's column number in the whole array against the row's label. -/
theorem isLabel_at (i : grid0.Coords) (v33 : Vec Ideal S512x1 .i32) (b : Fin 512) (j : Fin 1024) :
    isLabel i v33 (ix2 b j)
      = IntOp.cmpi .eq (BitVec.ofNat 32 ((i 0).val * 1024 + j.val)) (v33 (ix2 b (0 : Fin 1))) := by
  unfold isLabel
  show IntOp.cmpi .eq (IntOp.addi (iota .tc S512x1024 32 [1] iota_S512x1024_d1_w32 (ix2 b j)) (Scalar.muli (BitVec.ofNat 32 (i 0).val) 1024#32))
      (broadcastTo S512x1024 (shapeCast S512x1 v33 shapeCasts_S512x1_S512x1) broadcasts_S512x1_S512x1024 (ix2 b j)) = _
  rw [spreadLabels_at, shapeCast_self, iota_single_apply]
  exact congrArg (IntOp.cmpi .eq · _) (columnNumber (i 0).val j.val)

/-- The stored value at one entry: the margin transform of the cosine of feature row b and class row j of the block,
    with the label test of the entry's column number in the whole array. -/
theorem pay_at (i : grid0.Coords) (v0 : Vec Ideal S1024x512 .f32) (v10 : Vec Ideal S512x512 .bf16)
    (v33 : Vec Ideal S512x1 .i32) (b : Fin 512) (j : Fin 1024) :
    k0_pay1 (F := Ideal) i v0 v10 v33 (ix2 b j)
      = Cert.Margin.margin (Cert.Margin.cosine (fun k => v10 (ix2 b k)) (fun k => v0 (ix2 j k)))
          (IntOp.cmpi .eq (BitVec.ofNat 32 ((i 0).val * 1024 + j.val)) (v33 (ix2 b (0 : Fin 1)))) := by
  rw [pay_eq]
  show Cert.Margin.margin (cosines v0 v10 (ix2 b j)) (isLabel i v33 (ix2 b j)) = _
  rw [cosines_at, isLabel_at]

end Cert.KernelIdeal.PayAt

end
-- ==== Proof.HostOperands.lean ====
/-
  What the region's two host-computed operand arrays hold, read at an index, at the ideal values.

  Before its one region the program normalizes the feature rows on the host: it squares the features, sums each
  row, takes the square root, floors it at the f32 word nearest 1e-12, and divides every entry by its row's floored
  length (the final narrowing to bf16 is the identity at the ideal values). Read at an index that is the
  specification's `unitRow` of the row. The label vector is only reshaped from [512] to [512, 1].
-/
import proofs.«141103_j63221918597379_1_alg».proof.Proof.Gen.KernelIdeal.Frame
import proofs.«141103_j63221918597379_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HostOperands

open Cert.KernelIdeal Cert.KernelIdeal.Gen Idealize.ShloMosaic Idealize.ShloMosaic.TcCoe Idealize.ShloMosaic.ValueIdx
open Idealize.ShloMosaic.StableHlo

/-! ## The host's normalization as a function of the feature array -/

/-- The sum of squares of each row, started from the zero word. -/
def sumSq (x : (⟨S512x512, .f32⟩ : BufTy).Contents (Elt Ideal)) : (⟨S512, .f32⟩ : BufTy).Contents (Elt Ideal) :=
  Host.reduceAdd (F := Ideal) (mulf (F := Ideal) x x) (constant (F := Ideal) S_ .f32 0x00000000#32) reducesTo_S512x512_S512_d1 h_S_

/-- Each row's Euclidean length floored at the f32 word nearest 1e-12, as a column. -/
def len (x : (⟨S512x512, .f32⟩ : BufTy).Contents (Elt Ideal)) : (⟨S512x1, .f32⟩ : BufTy).Contents (Elt Ideal) :=
  maximumf (F := Ideal) (Host.sqrt (F := Ideal) (broadcastInDim S512x1 ![0] bcast_S512_S512x1_0 (sumSq x)))
    (broadcastInDim S512x1 ![] bcast_S_S512x1 (constant (F := Ideal) S_ .f32 0x2B8CBCCC#32))

/-- The features, every entry divided by its row's floored length. -/
def normalized (x : (⟨S512x512, .f32⟩ : BufTy).Contents (Elt Ideal)) : (⟨S512x512, .bf16⟩ : BufTy).Contents (Elt Ideal) :=
  truncf (F := Ideal) .bf16 (Host.divf (F := Ideal) x (broadcastInDim S512x512 ![0, 1] bcast_S512x1_S512x512_0_1 (len x))) bitsLt_bf16_f32

/-- A row's sum of squares: the host's float sum at the ideal values is the exact sum, and its initial word is zero. -/
theorem sumSq_apply (x : S512x512.Idx → EReal) (b : Fin 512) :
    (sumSq x : S512.Idx → EReal) (ix1 b) = ∑ k : Fin 512, x (ix2 b k) * x (ix2 b k) := by
  unfold sumSq
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  refine Finset.sum_congr rfl fun k _ => ?_
  show x _ * x _ = _
  have e : ((by decide : S512x512.Reduces [1] S512).lift (ix1 b) k) = ix2 b k :=
    funext fun a => Fin.ext (by match a with | ⟨0, _⟩ => rfl | ⟨1, _⟩ => rfl)
  rw [e]
  rfl

/-- A row's floored length: the column read at a row is the specification's `rowLen` of that row. -/
theorem len_apply (x : S512x512.Idx → EReal) (b : Fin 512) (z : Fin 1) :
    (len x : S512x1.Idx → EReal) (ix2 b z) = Cert.Margin.rowLen (fun k => x (ix2 b k)) := by
  unfold len Cert.Margin.rowLen
  show max (Ideal.sqrt (broadcastInDim S512x1 ![0] bcast_S512_S512x1_0 (sumSq x) (ix2 b z)))
      (broadcastInDim S512x1 ![] bcast_S_S512x1 (constant (F := Ideal) S_ .f32 0x2B8CBCCC#32) (ix2 b z)) = _
  rw [broadcastInDim_apply _ bcast_S512_S512x1_0 (sumSq x) (ix2 b z) (ix1 b) (fun a => match a with
      | ⟨0, _⟩ => by show b.val = if (512 : Nat) = 1 then 0 else b.val; rw [if_neg (by decide)]),
    broadcastInDim_apply _ bcast_S_S512x1 (constant (F := Ideal) S_ .f32 0x2B8CBCCC#32) (ix2 b z) (fun a => a.elim0) (fun a => a.elim0),
    sumSq_apply]
  rfl

/-- An entry of the normalized features is the specification's `unitRow` of its row at its column. -/
theorem normalized_apply (x : S512x512.Idx → EReal) (b k : Fin 512) :
    (normalized x : S512x512.Idx → EReal) (ix2 b k) = Cert.Margin.unitRow (fun k => x (ix2 b k)) k := by
  unfold normalized Cert.Margin.unitRow
  show Ideal.div (x (ix2 b k)) (broadcastInDim S512x512 ![0, 1] bcast_S512x1_S512x512_0_1 (len x) (ix2 b k)) = _
  rw [broadcastInDim_apply _ bcast_S512x1_S512x512_0_1 (len x) (ix2 b k) (ix2 b 0) (fun a => match a with
      | ⟨0, _⟩ => by show b.val = if (512 : Nat) = 1 then 0 else b.val; rw [if_neg (by decide)]
      | ⟨1, _⟩ => by show 0 = if (1 : Nat) = 1 then 0 else k.val; rw [if_pos rfl]),
    len_apply]

/-! ## The two operand arrays as the region finds them -/

variable (m : (ℓ : Loc nD τ sig) → Buf (Elt Ideal) ℓ)

/-- The region's feature operand is the host's normalization of the launched features. -/
theorem V_features_eq (c : Dev nD) :
    (Gen.V m c main_v8 : S512x512.Idx → EReal) = normalized (m ((c : Thread nD τ).loc main_arg0)) := by
  dsimp only [Gen.V, Gen.hostOps0]
  after_results
  rfl

/-- The region's feature operand at an index: the launched features' row, divided by its floored length. -/
theorem V_features (c : Dev nD) (p : S512x512.Idx) :
    (Gen.V m c main_v8 : S512x512.Idx → EReal) p
      = Cert.Margin.unitRow (fun k => (m ((c : Thread nD τ).loc main_arg0) : S512x512.Idx → EReal) (ix2 (p 0) k)) (p 1) := by
  rw [V_features_eq, eq_ix2 p]
  exact normalized_apply _ _ _

/-- The region's label operand is the launched label vector reshaped to a column. -/
theorem V_labels_eq (c : Dev nD) :
    (Gen.V m c main_v9 : S512x1.Idx → BitVec 32)
      = shapeCast S512x1 (m ((c : Thread nD τ).loc main_arg2) : S512.Idx → BitVec 32) shapeCasts_S512_S512x1 := by
  dsimp only [Gen.V, Gen.hostOps0]
  after_results
  rfl

/-- The region's label operand at an index: the launched label of that row. -/
theorem V_labels (c : Dev nD) (p : S512x1.Idx) :
    (Gen.V m c main_v9 : S512x1.Idx → BitVec 32) p
      = (m ((c : Thread nD τ).loc main_arg2) : S512.Idx → BitVec 32) (ix1 (p 0)) := by
  rw [V_labels_eq]
  refine shapeCast_apply _ shapeCasts_S512_S512x1 p (ix1 (p 0)) ?_
  have h1 : (p 1).val = 0 := by have := (p 1).isLt; simp at this; omega
  rw [Shape.rowMajor_val_one, Shape.rowMajor_val_two]
  show (p 0).val = (p 0).val * 1 + (p 1).val
  omega

end Cert.KernelIdeal.HostOperands

end
-- ==== Proof.Whole.lean ====
/-
  The output array after the run, as one function of the three arguments, at the ideal values.

  What grid point `t` writes back is the part inside the array of the body's value at that point; read at a
  column it depends on the matching row of the class block only, which lies inside the weight array exactly
  when the column lies inside the output array, so nothing past either array's end is ever read. That part is
  block `t` of the specification `G` of the arguments; the 98 blocks cover the 100000 columns; so the array
  ends at `G`.
-/
import proofs.«141103_j63221918597379_1_alg».proof.Proof.Data
import proofs.«141103_j63221918597379_1_alg».proof.Proof.PayAt
import proofs.«141103_j63221918597379_1_alg».proof.Proof.HostOperands
import Idealize.ShloMosaic.Lib.Pipeline.Value

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps and cuts, decided once over the 98 grid points: the features and the labels are one
    block; the class rows' block `t` starts at row `1024 t` and the output's at column `1024 t`; both are cut
    at the same place, the array's end (only the last block is); the other axes are never cut. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ (grid0.coords t 0).val = t.val
    ∧ win0_1.xsize (grid0.coords t) (0 : Fin 2) = win0_3.xsize (grid0.coords t) (1 : Fin 2)
    ∧ win0_1.xsize (grid0.coords t) (1 : Fin 2) = 512
    ∧ win0_3.xsize (grid0.coords t) (0 : Fin 2) = 512
    ∧ win0_3.xsize (grid0.coords t) (1 : Fin 2) = min 1024 (100000 - t.val * 1024) :=
  (by decide +kernel : ∀ t : Fin grid0.N, _)

/-! ## The three input blocks, read at an index -/

/-- The features' window is its whole array: the host's normalized features. -/
theorem feat_blk (c : Dev nD) (t : Fin cfg0.N) (b k : Fin 512) :
    iblk m c 0 t (ix2 b k)
      = Cert.Margin.unitRow (fun k => (m ((c : Thread nD τ).loc main_arg0) : S512x512.Idx → EReal) (ix2 b k)) k := by
  obtain ⟨e0, e1, -⟩ := idx_facts t
  have he : ((cfg0.win 0).blk t).view.emb (ix2 b k) = (ix2 b k : S512x512.Idx) := by
    funext a; apply Fin.ext
    match a with
    | ⟨0, _⟩ => show win0_0.index t (0 : Fin 2) * 512 + 1 * b.val = b.val; omega
    | ⟨1, _⟩ => show win0_0.index t (1 : Fin 2) * 512 + 1 * k.val = k.val; omega
  show (V m c main_v8 : S512x512.Idx → EReal) (((cfg0.win 0).blk t).view.emb (ix2 b k)) = _
  rw [he]
  exact HostOperands.V_features m c (ix2 b k)

/-- The labels' window is its whole array: the label vector as a column. -/
theorem label_blk (c : Dev nD) (t : Fin cfg0.N) (b : Fin 512) :
    iblk m c 2 t (ix2 b (0 : Fin 1)) = (m ((c : Thread nD τ).loc main_arg2) : S512.Idx → BitVec 32) (ix1 b) := by
  obtain ⟨-, -, -, -, e0, e1, -⟩ := idx_facts t
  have he : ((cfg0.win 2).blk t).view.emb (ix2 b (0 : Fin 1)) = (ix2 b (0 : Fin 1) : S512x1.Idx) := by
    funext a; apply Fin.ext
    match a with
    | ⟨0, _⟩ => show win0_2.index t (0 : Fin 2) * 512 + 1 * b.val = b.val; omega
    | ⟨1, _⟩ => show win0_2.index t (1 : Fin 2) * 1 + 1 * 0 = 0; omega
  show (V m c main_v9 : S512x1.Idx → BitVec 32) (((cfg0.win 2).blk t).view.emb (ix2 b (0 : Fin 1))) = _
  rw [he]
  exact HostOperands.V_labels m c (ix2 b (0 : Fin 1))

/-- The class rows' buffer at point `t`, whatever it holds past the array's end, read at a row inside the array:
    row `1024 t + j` of the weight array. -/
theorem class_blk (c : Dev nD) (t : Fin cfg0.N) (d : S1024x512.Idx → EReal) (j : Fin 1024) (k : Fin 512)
    (hj : j.val < win0_3.xsize (grid0.coords t) (1 : Fin 2)) (r : Fin 100000) (hr : r.val = t.val * 1024 + j.val) :
    (cfg0.win 1).fill (cfg0.grid.coords t) d (iblk m c 1 t) (ix2 j k)
      = (m ((c : Thread nD τ).loc main_arg1) : S100000x512.Idx → EReal) (ix2 r k) := by
  obtain ⟨-, -, e2, e3, -, -, -, -, -, x0, x1, -⟩ := idx_facts t
  have hmv : (cfg0.win 1).moved (cfg0.grid.coords t) (ix2 j k) = true :=
    ((cfg0.win 1).moved_iff _ _).mpr (fun a => by
      match a with
      | ⟨0, _⟩ => show j.val < win0_1.xsize (grid0.coords t) (0 : Fin 2); omega
      | ⟨1, _⟩ => show k.val < win0_1.xsize (grid0.coords t) (1 : Fin 2); have := k.isLt; omega)
  unfold Pipeline.Window.fill
  rw [dif_pos hmv]
  show (V m c main_arg1 : S100000x512.Idx → EReal) (((cfg0.win 1).blk t).view.emb _) = _
  rw [V_main_arg1]
  refine congrArg _ (funext fun a => Fin.ext ?_)
  match a with
  | ⟨0, _⟩ => show win0_1.index t (0 : Fin 2) * 1024 + 1 * j.val = r.val; omega
  | ⟨1, _⟩ => show win0_1.index t (1 : Fin 2) * 512 + 1 * k.val = k.val; omega

/-! ## The body's value at a point is block `t` of the specification -/

/-- The specification at the three arguments as the program finds them. -/
def Gm (c : Dev nD) : S512x100000.Idx → EReal :=
  Cert.Margin.G (m ((c : Thread nD τ).loc main_arg0)) (m ((c : Thread nD τ).loc main_arg1)) (m ((c : Thread nD τ).loc main_arg2))

/-- The body's value at point `t`, WHATEVER the class rows' buffer holds past the weight array's end (`d`), read at
    a column inside the output array: the specification at row `b`, column `1024 t + j`. -/
theorem out_at (c : Dev nD) (t : Fin cfg0.N) (d : S1024x512.Idx → EReal)
    (y : ((cfg0.win 3).xblock (cfg0.grid.coords t)).Idx) :
    (cfg0.win 3).cut (cfg0.grid.coords t)
        (outBlk (grid0.coords t) (iblk m c 0 t) ((cfg0.win 1).fill (cfg0.grid.coords t) d (iblk m c 1 t)) (iblk m c 2 t)) y
      = Gm m c (((cfg0.win 3).blk t).view.emb y) := by
  obtain ⟨-, -, -, -, -, -, e6, e7, eg, x0, x1, x2, x3⟩ := idx_facts t
  have hy0 : (y 0).val < 512 := by
    have h : (y 0).val < win0_3.xsize (grid0.coords t) (0 : Fin 2) := (y 0).isLt
    omega
  have hy1 : (y 1).val < win0_3.xsize (grid0.coords t) (1 : Fin 2) := (y 1).isLt
  have hy1' : (y 1).val < 1024 := by omega
  have hr : t.val * 1024 + (y 1).val < 100000 := by omega
  have hx : (cfg0.win 3).xinj (cfg0.grid.coords t) y = (ix2 (⟨(y 0).val, hy0⟩ : Fin 512) (⟨(y 1).val, hy1'⟩ : Fin 1024) : S512x1024.Idx) :=
    funext fun a => Fin.ext (by match a with | ⟨0, _⟩ => rfl | ⟨1, _⟩ => rfl)
  have he : ((cfg0.win 3).blk t).view.emb y
      = (ix2 (⟨(y 0).val, hy0⟩ : Fin 512) (⟨t.val * 1024 + (y 1).val, hr⟩ : Fin 100000) : S512x100000.Idx) :=
    funext fun a => Fin.ext (by
      match a with
      | ⟨0, _⟩ => show win0_3.index t (0 : Fin 2) * 512 + 1 * (y 0).val = (y 0).val; omega
      | ⟨1, _⟩ => show win0_3.index t (1 : Fin 2) * 1024 + 1 * (y 1).val = t.val * 1024 + (y 1).val; omega)
  show outBlk (grid0.coords t) (iblk m c 0 t) ((cfg0.win 1).fill (cfg0.grid.coords t) d (iblk m c 1 t)) (iblk m c 2 t)
      ((cfg0.win 3).xinj (cfg0.grid.coords t) y) = _
  rw [hx, he, outBlk_eq, PayAt.pay_at]
  have hf : (fun k => iblk m c 0 t (ix2 (⟨(y 0).val, hy0⟩ : Fin 512) k))
      = Cert.Margin.unitRow (fun k => (m ((c : Thread nD τ).loc main_arg0) : S512x512.Idx → EReal) (ix2 (⟨(y 0).val, hy0⟩ : Fin 512) k)) :=
    funext fun k => feat_blk m c t _ k
  have hc : (fun k => (cfg0.win 1).fill (cfg0.grid.coords t) d (iblk m c 1 t) (ix2 (⟨(y 1).val, hy1'⟩ : Fin 1024) k))
      = (fun k => (m ((c : Thread nD τ).loc main_arg1) : S100000x512.Idx → EReal) (ix2 (⟨t.val * 1024 + (y 1).val, hr⟩ : Fin 100000) k)) :=
    funext fun k => class_blk m c t d ⟨(y 1).val, hy1'⟩ k hy1 ⟨t.val * 1024 + (y 1).val, hr⟩ rfl
  rw [hf, hc, label_blk]
  show Cert.Margin.margin _ (IntOp.cmpi .eq (BitVec.ofNat 32 ((grid0.coords t 0).val * 1024 + (y 1).val)) _) = _
  rw [eg]
  rfl

/-- So the columns of the output block inside the array do not depend on what lies past the weight array's end. -/
theorem cutIndep : CutIndep m := by
  intro c t d
  unfold wfill
  funext y
  rw [out_at m c t d y, out_at m c t _ y]

/-- WHAT POINT `t` WRITES BACK is block `t` of the specification. -/
theorem flushed_eq (c : Dev nD) (t : Fin cfg0.N) :
    (dats m 0 c).flushed 3 t = ((cfg0.win 3).blk t).view.read (Elt Ideal) (Gm m c) := by
  show (cfg0.win 3).cut (grid0.coords t) ((dats m 0 c).after 3 t) = _
  rw [after0_3]
  unfold wfill
  funext y
  rw [out_at m c t _ y]
  rfl

/-! ## The blocks cover the array -/

/-- An index of the output array is in point `t`'s block iff each coordinate is in the block's range, cut at the
    array's end. -/
theorem mem_blk (t : Fin cfg0.N) (i : S512x100000.Idx) :
    i ∈ ((cfg0.win 3).blk t).view.set ↔ ∀ a : Fin 2, win0_3.index t a * S512x1024.size a ≤ (i a).val
      ∧ (i a).val < win0_3.index t a * S512x1024.size a + win0_3.xsize (grid0.coords t) a := by
  show i ∈ ((View.whole main_v10).slice (win0_3.rect t)).set ↔ _
  rw [View.set_slice_whole, Rect.mem_set_unit]
  exact Iff.rfl

/-- Column `n` lies in the block of point `n / 1024`. -/
theorem cover (i : S512x100000.Idx) :
    ∃ t : Fin cfg0.N, (cfg0.win 3).flush t = true ∧ i ∈ ((cfg0.win 3).blk t).view.set := by
  have h0 : (i 0).val < 512 := (i 0).isLt
  have h1 : (i 1).val < 100000 := (i 1).isLt
  have hN : (i 1).val / 1024 < cfg0.N := by show (i 1).val / 1024 < grid0.N; rw [N_0]; omega
  refine ⟨⟨(i 1).val / 1024, hN⟩, flush0_3 _, ?_⟩
  rw [mem_blk]
  obtain ⟨-, -, -, -, -, -, e6, e7, -, -, -, x2, x3⟩ := idx_facts ⟨(i 1).val / 1024, hN⟩
  have ev : (⟨(i 1).val / 1024, hN⟩ : Fin cfg0.N).val = (i 1).val / 1024 := rfl
  intro a
  match a with
  | ⟨0, _⟩ =>
    show win0_3.index ⟨(i 1).val / 1024, hN⟩ (0 : Fin 2) * 512 ≤ (i 0).val
      ∧ (i 0).val < win0_3.index ⟨(i 1).val / 1024, hN⟩ (0 : Fin 2) * 512 + win0_3.xsize (grid0.coords ⟨(i 1).val / 1024, hN⟩) (0 : Fin 2)
    omega
  | ⟨1, _⟩ =>
    show win0_3.index ⟨(i 1).val / 1024, hN⟩ (1 : Fin 2) * 1024 ≤ (i 1).val
      ∧ (i 1).val < win0_3.index ⟨(i 1).val / 1024, hN⟩ (1 : Fin 2) * 1024 + win0_3.xsize (grid0.coords ⟨(i 1).val / 1024, hN⟩) (1 : Fin 2)
    omega

/-- THE OUTPUT ARRAY after the run is the specification of the three arguments. -/
theorem final (c : Dev nD) : (dats m 0 c).arrAt 3 cfg0.N = Gm m c :=
  (dats m 0 c).arrAt_eq_of_cover 3 (Gm m c) (fun t _ => flushed_eq m c t) (cover)

/-! ## The run, read -/

/-- Every weakly fair execution of the kernel program terminates, nothing faulting, with the result array at the
    specification of the arguments and the arguments unchanged. -/
theorem run : θ_run defs (onTc (τ := τ) (main (F := Ideal))) ⟨m, fun _ => 0, ρ⟩ fun r => ∀ c : Dev nD,
      r.2.mem ((c : Thread nD τ).loc main_v10) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_exact m ρ (cutIndep m))

end Cert.KernelIdeal.Whole

end
-- ==== Proof.RefIsG.lean ====
/-
  The reference program's result, read index by index, is the specification.

  Entry `(b, c)` of the result is reached stage by stage: the squared entries of a row summed and the
  square root floored give the row's length; the row divided by it is the unit row; the contraction
  over the 512 coordinates of the unit feature row `b` with the unit class row `c` is the cosine; the
  column number compared with the row's label says whether the margin applies; and the remaining
  stages, all pointwise, are the margin transform of that cosine times 64.
-/
import proofs.«141103_j63221918597379_1_alg».proof.Proof.Gen.ReferenceIdeal.Read
import proofs.«141103_j63221918597379_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Cert.Margin

/-- The floored length of feature row `b`, at either entry of the one-column array that holds it. -/
theorem featLen_at (x0 : (⟨S512x512, .f32⟩ : BufTy).Contents (Elt Ideal)) (b : Fin 512) (z : Fin 1) :
    val_main_v5 (F := Ideal) x0 (ix2 b z) = rowLen (fun k => x0 (ix2 b k)) := by
  rw [val_main_v5_apply, val_main_v3_apply, val_main_v2_apply, val_main_v1_apply, val_main_v4_apply,
    val_main_cst_0_apply, val_main_cst_apply]
  have e : ∀ k : Fin 512, idx_main_v1 (idx_main_v2 (ix2 b z)) k = ix2 b k := fun k =>
    funext fun a => Fin.ext (by match a with | ⟨0, _⟩ => rfl | ⟨1, _⟩ => rfl)
  simp only [val_main_v0_apply, e, Ideal.maximumf_def, Ideal.hostUnary_sqrt_def, Ideal.ofBits_def,
    Ideal.mulf_def, Ideal.ofBits_zero_f32, zero_add]
  rfl

/-- Entry `(b, k)` of the normalized features is entry `k` of the unit row `b`. -/
theorem featUnit_at (x0 : (⟨S512x512, .f32⟩ : BufTy).Contents (Elt Ideal)) (b k : Fin 512) :
    val_main_v7 (F := Ideal) x0 (ix2 b k) = unitRow (fun k => x0 (ix2 b k)) k := by
  rw [val_main_v7_apply, val_main_v6_apply]
  have e : idx_main_v6 (ix2 b k) = ix2 b (0 : Fin 1) :=
    funext fun a => Fin.ext (by match a with | ⟨0, _⟩ => rfl | ⟨1, _⟩ => rfl)
  rw [e, featLen_at]
  simp only [Ideal.hostDivf_def]
  rfl

/-- The floored length of class row `c`. -/
theorem classLen_at (x1 : (⟨S100000x512, .f32⟩ : BufTy).Contents (Elt Ideal)) (c : Fin 100000) (z : Fin 1) :
    val_main_v13 (F := Ideal) x1 (ix2 c z) = rowLen (fun k => x1 (ix2 c k)) := by
  rw [val_main_v13_apply, val_main_v11_apply, val_main_v10_apply, val_main_v9_apply, val_main_v12_apply,
    val_main_cst_2_apply, val_main_cst_1_apply]
  have e : ∀ k : Fin 512, idx_main_v9 (idx_main_v10 (ix2 c z)) k = ix2 c k := fun k =>
    funext fun a => Fin.ext (by match a with | ⟨0, _⟩ => rfl | ⟨1, _⟩ => rfl)
  simp only [val_main_v8_apply, e, Ideal.maximumf_def, Ideal.hostUnary_sqrt_def, Ideal.ofBits_def,
    Ideal.mulf_def, Ideal.ofBits_zero_f32, zero_add]
  rfl

/-- Entry `(c, k)` of the normalized class weights is entry `k` of the unit row `c`. -/
theorem classUnit_at (x1 : (⟨S100000x512, .f32⟩ : BufTy).Contents (Elt Ideal)) (c : Fin 100000) (k : Fin 512) :
    val_main_v15 (F := Ideal) x1 (ix2 c k) = unitRow (fun k => x1 (ix2 c k)) k := by
  rw [val_main_v15_apply, val_main_v14_apply]
  have e : idx_main_v14 (ix2 c k) = ix2 c (0 : Fin 1) :=
    funext fun a => Fin.ext (by match a with | ⟨0, _⟩ => rfl | ⟨1, _⟩ => rfl)
  rw [e, classLen_at]
  simp only [Ideal.hostDivf_def]
  rfl

/-- Entry `(b, c)` of the contraction is the cosine of feature row `b` and class row `c`. -/
theorem cosine_at (x0 : (⟨S512x512, .f32⟩ : BufTy).Contents (Elt Ideal))
    (x1 : (⟨S100000x512, .f32⟩ : BufTy).Contents (Elt Ideal)) (b : Fin 512) (c : Fin 100000) :
    val_main_v17 (F := Ideal) x0 x1 (ix2 b c)
      = cosine (unitRow fun k => x0 (ix2 b k)) (fun k => x1 (ix2 c k)) := by
  rw [val_main_v17_apply]
  unfold cosine
  refine Finset.sum_congr rfl fun k _ => ?_
  have el : lidx_main_v17 (ix2 b c) k = ix2 b k :=
    funext fun a => Fin.ext (by match a with | ⟨0, _⟩ => rfl | ⟨1, _⟩ => rfl)
  have er : idx_main_v16 (ridx_main_v17 (ix2 b c) k) = ix2 c k :=
    funext fun a => Fin.ext (by match a with | ⟨0, _⟩ => rfl | ⟨1, _⟩ => rfl)
  rw [val_main_v16_apply, el, er, featUnit_at, classUnit_at]

/-- Entry `(b, c)` of the mask says whether column `c` is the label of row `b`. -/
theorem target_at (x2 : (⟨S512, .i32⟩ : BufTy).Contents (Elt Ideal)) (b : Fin 512) (c : Fin 100000) :
    val_main_v38 (F := Ideal) x2 (ix2 b c) = IntOp.cmpi .eq (BitVec.ofNat 32 c.val) (x2 (ix1 b)) := by
  rw [val_main_v38_apply, val_main_v36_apply, val_main_v34_apply, val_main_v33_apply, val_main_v37_apply,
    val_main_v35_apply]
  have e : idx_main_v35 (idx_main_v37 (ix2 b c)) = ix1 b :=
    funext fun a => Fin.ext (by match a with | ⟨0, _⟩ => rfl)
  rw [e]

/-- The stages after the contraction are the margin transform of its entry, times 64. -/
theorem margin_at (x0 : (⟨S512x512, .f32⟩ : BufTy).Contents (Elt Ideal))
    (x1 : (⟨S100000x512, .f32⟩ : BufTy).Contents (Elt Ideal)) (x2 : (⟨S512, .i32⟩ : BufTy).Contents (Elt Ideal))
    (i : S512x100000.Idx) :
    val_main_v41 (F := Ideal) x0 x1 x2 i
      = margin (val_main_v17 (F := Ideal) x0 x1 i) (val_main_v38 (F := Ideal) x2 i) := by
  simp only [val_main_v41_apply, val_main_v39_apply, val_main_v40_apply, val_main_cst_9_apply,
    val_main_v32_apply, val_main_v29_apply, val_main_v28_apply, val_main_cst_7_apply, val_main_v27_apply,
    val_main_v24_apply, val_main_v23_apply, val_main_cst_5_apply, val_main_v26_apply, val_main_v22_apply,
    val_main_v21_apply, val_main_call0_v1_apply, val_main_call0_v0_apply, val_main_cst_4_apply,
    val_main_v20_apply, val_main_v19_apply, val_main_cst_3_apply, val_main_v18_apply, val_main_v25_apply,
    val_main_cst_6_apply, val_main_v31_apply, val_main_v30_apply, val_main_cst_8_apply]
  generalize val_main_v17 (F := Ideal) x0 x1 i = cs
  generalize val_main_v38 (F := Ideal) x2 i = tgt
  simp only [Ideal.maximumf_def, Ideal.hostUnary_sqrt_def, Ideal.ofBits_def, Ideal.mulf_def, Ideal.subf_def]
  rfl

/-- The reference program's result is the specification. -/
theorem ref_eq_G (x0 : (⟨S512x512, .f32⟩ : BufTy).Contents (Elt Ideal))
    (x1 : (⟨S100000x512, .f32⟩ : BufTy).Contents (Elt Ideal)) (x2 : (⟨S512, .i32⟩ : BufTy).Contents (Elt Ideal)) :
    val_main_v41 (F := Ideal) x0 x1 x2 = Cert.Margin.G x0 x1 x2 := by
  funext i
  obtain ⟨b, c, rfl⟩ : ∃ (b : Fin 512) (c : Fin 100000), i = ix2 b c := ⟨i 0, i 1, eq_ix2 i⟩
  rw [margin_at, cosine_at, target_at]
  rfl

end Cert.ReferenceIdeal.RefValue

end
-- ==== Proof.lean ====
/-
  The certificate's five claims for the additive-angular-margin kernel over x[512, 512], weight[100000, 512]
  and label[512].

  Both programs compute, at row `b` and column `c`, the cosine between feature row `b` and class row `c`,
  each divided by its Euclidean length floored at the f32 word nearest 1e-12, with the margin transform applied
  at the label's column, times 64 (`Cert.Margin.G`). The kernel normalizes the features on the host and the
  class rows inside its body, 1024 of them per grid point, and contracts the two over their shared axis; the
  reference normalizes both on the host, transposes the class rows and takes one product. At the ideal values
  these are the same sums, term by term, so no law of arithmetic beyond reading each operation at an index is
  needed, and the precondition is never opened.

  The weight array does not divide into the kernel's blocks (100000 = 97 · 1024 + 672): the last class block
  and the last output block overhang their arrays. Column `j` of an output block is computed from row `j` of
  the class block alone, and both blocks are cut at the same place, so the part written back never depends on
  what lies past the weight array's end (`Whole.cutIndep`). For the frames nothing of the output is read at all.
-/
import proofs.«141103_j63221918597379_1_alg».proof.Defs
import proofs.«141103_j63221918597379_1_alg».proof.Proof.Gen.Kernel
import proofs.«141103_j63221918597379_1_alg».proof.Proof.Gen.KernelIdeal
import proofs.«141103_j63221918597379_1_alg».proof.Proof.Gen.ReferenceIdeal
import proofs.«141103_j63221918597379_1_alg».proof.Proof.Gen.ReferenceIdeal.Run
import proofs.«141103_j63221918597379_1_alg».proof.Proof.Gen.ReferenceIdeal.Read
import proofs.«141103_j63221918597379_1_alg».proof.Proof.Gen.Pre_finite_inputs
import proofs.«141103_j63221918597379_1_alg».proof.Proof.DataBits
import proofs.«141103_j63221918597379_1_alg».proof.Proof.Whole
import proofs.«141103_j63221918597379_1_alg».proof.Proof.RefIsG
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Body.frame m ρ

/-- So does the kernel read at the ideal values. -/
theorem frame_kernelIdeal : Cert.frame_KernelIdeal := fun m ρ _ => Cert.KernelIdeal.Body.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories agreeing on the arguments both programs end with the result array at the specification of the
    arguments: the kernel's by the blocks its grid points write back, the reference's by its operations read at an
    index. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v41_eq, Cert.ReferenceIdeal.RefValue.ref_eq_G,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
